-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S128x8x512 : Shape := ⟨3, ![128, 8, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S128x8x512 : S_.BroadcastsInDim S128x8x512 (![] : Fin 0 → Fin S128x8x512.rank)
  reducesTo_S128x8x512_S_d0_1_2 : S128x8x512.ReducesTo [0, 1, 2] S_

variable [Facts]

def fn {F : FTy → Type} [FloatOps F] (main_arg0 : FVec F S512x512 .f32) (main_arg1 : FVec F S128x8x512 .f32) (main_arg2 : FVec F S128x8x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S128x8x512 .f32 := Host.absf main_arg1
  let main_cst_0 : FVec F S_ .f32 := constant S_ .f32 0x7F800000#32
  let main_v5 : FVec F S128x8x512 .f32 := broadcastInDim S128x8x512 ![] bcast_S_S128x8x512 main_cst_0
  let main_v6 : IVec S128x8x512 1 := cmpf .olt main_v4 main_v5
  let main_c_1 : IVec S_ 1 := constantI S_ 1 1#1
  let main_v7 : IVec S_ 1 := (fun x v => Host.reduce IntOp.andi x v reducesTo_S128x8x512_S_d0_1_2 h_S_) main_v6 main_c_1
  let main_v8 : IVec S_ 1 := andi main_v3 main_v7
  let main_v9 : FVec F S128x8x512 .f32 := Host.absf main_arg2
  let main_cst_2 : FVec F S_ .f32 := constant S_ .f32 0x7F800000#32
  let main_v10 : FVec F S128x8x512 .f32 := broadcastInDim S128x8x512 ![] bcast_S_S128x8x512 main_cst_2
  let main_v11 : IVec S128x8x512 1 := cmpf .olt main_v9 main_v10
  let main_c_3 : IVec S_ 1 := constantI S_ 1 1#1
  let main_v12 : IVec S_ 1 := (fun x v => Host.reduce IntOp.andi x v reducesTo_S128x8x512_S_d0_1_2 h_S_) main_v11 main_c_3
  let main_v13 : IVec S_ 1 := andi main_v8 main_v12
  main_v13
-- ==== Kernel.lean ====
abbrev S512x512 : Shape := ⟨2, ![512, 512]⟩
abbrev S128x8x512 : Shape := ⟨3, ![128, 8, 512]⟩
abbrev S8x128x512 : Shape := ⟨3, ![8, 128, 512]⟩
abbrev S512x128 : Shape := ⟨2, ![512, 128]⟩
abbrev S8x512 : Shape := ⟨2, ![8, 512]⟩
abbrev S8x128 : Shape := ⟨2, ![8, 128]⟩
abbrev S8x1x512 : Shape := ⟨3, ![8, 1, 512]⟩
abbrev S1x128x512 : Shape := ⟨3, ![1, 128, 512]⟩
abbrev S128x512 : Shape := ⟨2, ![128, 512]⟩

abbrev nBuf : Space → Nat
  | .hbm => 6
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S128x8x512, .f32⟩
  | .hbm, ⟨2, _⟩ => ⟨S128x8x512, .f32⟩
  | .hbm, ⟨3, _⟩ => ⟨S8x128x512, .f32⟩
  | .hbm, ⟨4, _⟩ => ⟨S8x128x512, .f32⟩
  | .hbm, ⟨5, _⟩ => ⟨S512x128, .f32⟩
  | .local _ .vmem, ⟨0, _⟩ => ⟨S8x512, .f32⟩
  | .local _ .vmem, ⟨1, _⟩ => ⟨S8x512, .f32⟩
  | .local _ .vmem, ⟨2, _⟩ => ⟨S8x128x512, .f32⟩
  | .local _ .vmem, ⟨3, _⟩ => ⟨S8x128x512, .f32⟩
  | .local _ .vmem, ⟨4, _⟩ => ⟨S8x128, .f32⟩
  | .local _ .vmem, ⟨5, _⟩ => ⟨S8x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x8x512_S8x128x512_1_0_2 : S128x8x512.Transposes [1, 0, 2] S8x128x512
  inb_S8x512_S8x512_0_0 : ∀ a, (![0, 0] : Fin 2 → Nat) a + S8x512.size a ≤ S8x512.size a
  h_S8x512 : 0 < S8x512.numel
  inb_S8x128x512_S8x128x512_0_0_0 : ∀ a, (![0, 0, 0] : Fin 3 → Nat) a + S8x128x512.size a ≤ S8x128x512.size a
  h_S8x128x512 : 0 < S8x128x512.numel
  shapeCasts_S8x128x512_S8x128x512 : S8x128x512.ShapeCasts S8x128x512
  shapeCasts_S8x512_S8x1x512 : S8x512.ShapeCasts S8x1x512
  slices_S8x128x512_o0_0_0_S1x128x512 : S8x128x512.Slices ![0, 0, 0] S1x128x512
  shapeCasts_S1x128x512_S128x512 : S1x128x512.ShapeCasts S128x512
  shapeCasts_S128x512_S1x128x512 : S128x512.ShapeCasts S1x128x512
  broadcasts_S8x1x512_S8x128x512 : S8x1x512.Broadcasts S8x128x512
  broadcasts_S1x128x512_S8x128x512 : S1x128x512.Broadcasts S8x128x512
  reduces_S8x128x512_S8x128 : S8x128x512.Reduces [2] S8x128
  slices_S8x128x512_o1_0_0_S1x128x512 : S8x128x512.Slices ![1, 0, 0] S1x128x512
  slices_S8x128x512_o2_0_0_S1x128x512 : S8x128x512.Slices ![2, 0, 0] S1x128x512
  slices_S8x128x512_o3_0_0_S1x128x512 : S8x128x512.Slices ![3, 0, 0] S1x128x512
  slices_S8x128x512_o4_0_0_S1x128x512 : S8x128x512.Slices ![4, 0, 0] S1x128x512
  slices_S8x128x512_o5_0_0_S1x128x512 : S8x128x512.Slices ![5, 0, 0] S1x128x512
  slices_S8x128x512_o6_0_0_S1x128x512 : S8x128x512.Slices ![6, 0, 0] S1x128x512
  slices_S8x128x512_o7_0_0_S1x128x512 : S8x128x512.Slices ![7, 0, 0] S1x128x512
  inb_S8x128_S8x128_0_0 : ∀ a, (![0, 0] : Fin 2 → Nat) a + S8x128.size a ≤ S8x128.size a
  h_S8x128 : 0 < S8x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512.size a ≤ S512x512.size a
  hwx0_0 : ∀ i : grid0.Coords, EltTy.bits .f32 = 32 ∨ (Rect.block (s := S512x512) S8x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x512.size a ≤ S8x128x512.size a
  hwx0_1 : ∀ i : grid0.Coords, EltTy.bits .f32 = 32 ∨ (Rect.block (s := S8x128x512) S8x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128x512.size a ≤ S8x128x512.size a
  hwx0_2 : ∀ i : grid0.Coords, EltTy.bits .f32 = 32 ∨ (Rect.block (s := S8x128x512) S8x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S512x128.size a
  hwx0_3 : ∀ i : grid0.Coords, EltTy.bits .f32 = 32 ∨ (Rect.block (s := S512x128) S8x128.size (cc0_transform_3 i) (hinb0_3 i)).WholeWords (EltTy.packing .f32)

variable [Facts₀]

abbrev win0_0 : Pipeline.Window sig grid0 :=
  Pipeline.Window.ofSpec (Memref.whole main_arg0) S8x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x512 : Shape := ⟨2, ![512, 512]⟩
abbrev S128x8x512 : Shape := ⟨3, ![128, 8, 512]⟩
abbrev S512x1x1x512 : Shape := ⟨4, ![512, 1, 1, 512]⟩
abbrev S1x128x8x512 : Shape := ⟨4, ![1, 128, 8, 512]⟩
abbrev S512x128x8x512 : Shape := ⟨4, ![512, 128, 8, 512]⟩
abbrev S_ : Shape := ⟨0, ![]⟩
abbrev S512x128x8 : Shape := ⟨3, ![512, 128, 8]⟩
abbrev S512x128 : Shape := ⟨2, ![512, 128]⟩

abbrev nBuf : Space → Nat
  | .hbm => 33
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S128x8x512, .f32⟩
  | .hbm, ⟨2, _⟩ => ⟨S128x8x512, .f32⟩
  | .hbm, ⟨3, _⟩ => ⟨S512x1x1x512, .f32⟩
  | .hbm, ⟨4, _⟩ => ⟨S1x128x8x512, .f32⟩
  | .hbm, ⟨5, _⟩ => ⟨S512x128x8x512, .f32⟩
  | .hbm, ⟨6, _⟩ => ⟨S512x128x8x512, .f32⟩
  | .hbm, ⟨7, _⟩ => ⟨S512x128x8x512, .f32⟩
  | .hbm, ⟨8, _⟩ => ⟨S1x128x8x512, .f32⟩
  | .hbm, ⟨9, _⟩ => ⟨S512x128x8x512, .f32⟩
  | .hbm, ⟨10, _⟩ => ⟨S512x128x8x512, .f32⟩
  | .hbm, ⟨11, _⟩ => ⟨S_, .f32⟩
  | .hbm, ⟨12, _⟩ => ⟨S512x128x8x512, .f32⟩
  | .hbm, ⟨13, _⟩ => ⟨S512x128x8x512, .f32⟩
  | .hbm, ⟨14, _⟩ => ⟨S_, .f32⟩
  | .hbm, ⟨15, _⟩ => ⟨S512x128x8x512, .f32⟩
  | .hbm, ⟨16, _⟩ => ⟨S512x128x8x512, .f32⟩
  | .hbm, ⟨17, _⟩ => ⟨S_, .f32⟩
  | .hbm, ⟨18, _⟩ => ⟨S512x128x8, .f32⟩
  | .hbm, ⟨19, _⟩ => ⟨S_, .f32⟩
  | .hbm, ⟨20, _⟩ => ⟨S512x128x8, .f32⟩
  | .hbm, ⟨21, _⟩ => ⟨S512x128x8, .f32⟩
  | .hbm, ⟨22, _⟩ => ⟨S_, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_call0_cst : Ref sig .tc := ⟨.hbm, 14, rfl⟩
abbrev main_call0_v0 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_call1_cst : Ref sig .tc := ⟨.hbm, 19, rfl⟩
abbrev main_call1_v0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_call2_cst : Ref sig .tc := ⟨.hbm, 30, rfl⟩
abbrev main_call2_v0 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  bcast_S512x512_S512x1x1x512_0_3 : S512x512.BroadcastsInDim S512x1x1x512 (![0, 3] : Fin 2 → Fin S512x1x1x512.rank)
  bcast_S128x8x512_S1x128x8x512_1_2_3 : S128x8x512.BroadcastsInDim S1x128x8x512 (![1, 2, 3] : Fin 3 → Fin S1x128x8x512.rank)
  bcast_S512x1x1x512_S512x128x8x512_0_1_2_3 : S512x1x1x512.BroadcastsInDim S512x128x8x512 (![0, 1, 2, 3] : Fin 4 → Fin S512x128x8x512.rank)
  bcast_S1x128x8x512_S512x128x8x512_0_1_2_3 : S1x128x8x512.BroadcastsInDim S512x128x8x512 (![0, 1, 2, 3] : Fin 4 → Fin S512x128x8x512.rank)
  bcast_S_S512x128x8x512 : S_.BroadcastsInDim S512x128x8x512 (![] : Fin 0 → Fin S512x128x8x512.rank)
  reducesTo_S512x128x8x512_S512x128x8_d3 : S512x128x8x512.ReducesTo [3] S512x128x8
  h_S_ : 0 < S_.numel
  bcast_S_S512x128x8 : S_.BroadcastsInDim S512x128x8 (![] : Fin 0 → Fin S512x128x8.rank)
  reducesTo_S512x128x8_S512x128_d2 : S512x128x8.ReducesTo [2] S512x128
  bcast_S_S512x128 : S_.BroadcastsInDim S512x128 (![] : Fin 0 → Fin S512x128.rank)

variable [Facts₀]

class Facts : Prop extends Facts₀ where

variable [Facts]
-- ==== Proof.Dendrite.lean ====
/-
  The arithmetic of one output entry, on the extended reals.

  Both programs compute, for a batch row b and an output unit o,
      out = relu( K * ( sum_m relu( sum_k relu( K * (x[b,k] * W[o,m,k] - q[o,m,k]) ) ) - QS ) ),   K = 1/2,
  one of them literally, the other with the factor K pulled out of both rectifiers and both sums:
      out = relu( K*K * ( sum_m relu( sum_k relu( x[b,k] * W[o,m,k] - q[o,m,k] ) ) ) - K*QS ).
  The two agree on ALL extended reals, infinities included, because K is a positive FINITE number:
  multiplication by it commutes with max(., 0), distributes over any sum, and distributes over a difference.
  The literals that occur are the binary values of 0.5, 0.25, f32(0.1) and f32(0.05); the last is exactly half the third.
-/
import Idealize.ShloMosaic.PureOps.Ideal
import Idealize.ShloMosaic.Lib.ValueIdx

noncomputable section

open scoped BigOperators

namespace Cert.Dendrite

open Idealize.ShloMosaic Idealize.ShloMosaic.ValueIdx

/-! ## The four literals -/

/-- The word of `0.5` denotes the real `1/2`. -/
theorem half_val : Ideal.ofBits .f32 0x3F000000#32 = ((1 / 2 : ℝ) : EReal) := by
  simp [Ideal.ofBits, Ideal.ieee, -EReal.coe_mul]; norm_num

/-- The word of `0.25` denotes the real `1/4`. -/
theorem quarter_val : Ideal.ofBits .f32 0x3E800000#32 = ((1 / 4 : ℝ) : EReal) := by
  simp [Ideal.ofBits, Ideal.ieee, -EReal.coe_mul]; norm_num

/-- The single-precision word nearest `0.1` denotes the dyadic `13421773 / 2^27`. -/
theorem tenth_val : Ideal.ofBits .f32 0x3DCCCCCD#32 = ((13421773 / 134217728 : ℝ) : EReal) := by
  simp [Ideal.ofBits, Ideal.ieee, -EReal.coe_mul]; norm_num

/-- The single-precision word nearest `0.05` denotes the dyadic `13421773 / 2^28`: half of the one above. -/
theorem twentieth_val : Ideal.ofBits .f32 0x3D4CCCCD#32 = ((13421773 / 268435456 : ℝ) : EReal) := by
  simp [Ideal.ofBits, Ideal.ieee, -EReal.coe_mul]; norm_num

/-! ## A non-negative finite factor -/

/-- Multiplying by a non-negative real commutes with `max(., 0)`: on the non-positive side both are `0`, on the
    non-negative side both are the product. -/
theorem scale_relu (r : ℝ) (hr : 0 ≤ r) (z : EReal) : max ((r : EReal) * z) 0 = (r : EReal) * max z 0 := by
  have hr' : (0 : EReal) ≤ (r : EReal) := EReal.coe_nonneg.2 hr
  rcases le_total z 0 with hz | hz
  · have h1 : (r : EReal) * z ≤ 0 := by
      have := mul_le_mul_of_nonneg_left hz hr'
      rwa [mul_zero] at this
    rw [max_eq_right hz, max_eq_right h1, mul_zero]
  · rw [max_eq_left hz, max_eq_left (EReal.mul_nonneg hr' hz)]

/-- A non-negative real factor moves out of any finite sum of extended reals (a finite non-negative factor
    distributes over every sum of two extended reals, whatever their signs). -/
theorem scale_sum {ι : Type*} (s : Finset ι) (r : ℝ) (hr : 0 ≤ r) (f : ι → EReal) :
    ∑ i ∈ s, (r : EReal) * f i = (r : EReal) * ∑ i ∈ s, f i := by
  classical
  refine Finset.induction_on s (by simp) ?_
  intro a s ha ih
  rw [Finset.sum_insert ha, Finset.sum_insert ha, ih,
    EReal.left_distrib_of_nonneg_of_ne_top (EReal.coe_nonneg.2 hr) (EReal.coe_ne_top r)]

/-! ## One output entry, in its two spellings -/

variable {M n : ℕ}

/-- The entry with the factor `1/2` inside both rectifiers: each sum starts from the value `0`, the offset `f32(0.1)` is
    subtracted before the last scaling. -/
def entryInner (x : Fin n → EReal) (w q : Fin M → Fin n → EReal) : EReal :=
  max (Ideal.ofBits .f32 0x3F000000#32 *
      ((0 + ∑ m : Fin M, max (0 + ∑ k : Fin n,
          max (Ideal.ofBits .f32 0x3F000000#32 * (x k * w m k - q m k)) 0) 0)
        - Ideal.ofBits .f32 0x3DCCCCCD#32)) 0

/-- The entry with the factor pulled out: `1/4` times the plain double sum, minus `f32(0.05)`. -/
def entryOuter (x : Fin n → EReal) (w q : Fin M → Fin n → EReal) : EReal :=
  max (Ideal.ofBits .f32 0x3E800000#32 *
      (∑ m : Fin M, max (∑ k : Fin n, max (x k * w m k - q m k) 0) 0)
        - Ideal.ofBits .f32 0x3D4CCCCD#32) 0

/-- The two spellings are one extended real, for all inputs: the factor `1/2` leaves the inner rectifier, the inner
    sum, the outer rectifier and the outer sum in turn, and then `1/2 * (1/2 * S - d) = 1/4 * S - d/2`. -/
theorem entryInner_eq_entryOuter (x : Fin n → EReal) (w q : Fin M → Fin n → EReal) :
    entryInner x w q = entryOuter x w q := by
  have hh : (0 : ℝ) ≤ 1 / 2 := by norm_num
  unfold entryInner entryOuter
  rw [half_val, quarter_val, tenth_val, twentieth_val]
  simp only [zero_add]
  have inner : ∀ m : Fin M,
      max (∑ k : Fin n, max (((1 / 2 : ℝ) : EReal) * (x k * w m k - q m k)) 0) 0
        = ((1 / 2 : ℝ) : EReal) * max (∑ k : Fin n, max (x k * w m k - q m k) 0) 0 := by
    intro m
    simp only [scale_relu _ hh]
    rw [scale_sum _ _ hh, scale_relu _ hh]
  simp only [inner]
  rw [scale_sum _ _ hh,
    EReal.mul_sub_of_nonneg_of_ne_top (EReal.coe_nonneg.2 hh) (EReal.coe_ne_top _), ← mul_assoc,
    ← EReal.coe_mul, ← EReal.coe_mul]
  norm_num

/-! ## The whole result -/

/-- The [512, 128] result as one function of x : [512, 512] and W, q : [128, 8, 512]: entry (b, o) is the entry above
    of row b of x and of the 8 dendrites (o, m, ·) of W and q. -/
def G (x : (⟨2, ![512, 512]⟩ : Shape).Idx → EReal) (W q : (⟨3, ![128, 8, 512]⟩ : Shape).Idx → EReal) :
    (⟨2, ![512, 128]⟩ : Shape).Idx → EReal :=
  fun i => entryOuter (fun k : Fin 512 => x (ix2 (i 0 : Fin 512) k))
    (fun (mm : Fin 8) (k : Fin 512) => W (ix3 (i 1 : Fin 128) mm k))
    (fun (mm : Fin 8) (k : Fin 512) => q (ix3 (i 1 : Fin 128) mm k))

end Cert.Dendrite

end
-- ==== Proof.RefEntry.lean ====
/-
  The reference's result at an entry (b, o): reading its operations one at a time, the entry is the rectified, scaled
  double sum with the factor 1/2 inside both rectifiers — `Dendrite.entryInner` of row b of x and of the slabs o of W and q.
  The only work is naming the operand indices the broadcasts and the two sums reach: x is read at (b, k), W and q at (o, m, k).
-/
import proofs.«155146_j78056735638014_2_alg».proof.Proof.Gen.ReferenceIdeal.Read
import proofs.«155146_j78056735638014_2_alg».proof.Proof.Dendrite
import Idealize.ShloMosaic.Lib.ValueIdx

noncomputable section

open scoped BigOperators

namespace Cert.Dendrite.Ref

open Cert.ReferenceIdeal Cert.ReferenceIdeal.Read Idealize.ShloMosaic Idealize.ShloMosaic.ValueIdx

/-- Through the two broadcasts of x and the two sums, entry (b, o) with summation indices (m, k) reads x at (b, k). -/
theorem idx_x (b : Fin 512) (o : Fin 128) (m : Fin 8) (k : Fin 512) :
    idx_main_v0 (idx_main_v2 (idx_main_v11 (idx_main_v13 (ix2 b o) m) k)) = ix2 b k :=
  funext fun a => Fin.ext (by match a with | ⟨0, _⟩ => rfl | ⟨1, _⟩ => rfl)

/-- … and reads W at (o, m, k). -/
theorem idx_w (b : Fin 512) (o : Fin 128) (m : Fin 8) (k : Fin 512) :
    idx_main_v1 (idx_main_v3 (idx_main_v11 (idx_main_v13 (ix2 b o) m) k)) = ix3 o m k :=
  funext fun a => Fin.ext (by match a with | ⟨0, _⟩ => rfl | ⟨1, _⟩ => rfl | ⟨2, _⟩ => rfl)

/-- … and reads q at (o, m, k). -/
theorem idx_q (b : Fin 512) (o : Fin 128) (m : Fin 8) (k : Fin 512) :
    idx_main_v5 (idx_main_v6 (idx_main_v11 (idx_main_v13 (ix2 b o) m) k)) = ix3 o m k :=
  funext fun a => Fin.ext (by match a with | ⟨0, _⟩ => rfl | ⟨1, _⟩ => rfl | ⟨2, _⟩ => rfl)

/-- The reference's last stage at (b, o) is the entry with the factor inside. -/
theorem val_entry (x0 : FVec Ideal S512x512 .f32) (x1 x2 : FVec Ideal S128x8x512 .f32) (b : Fin 512) (o : Fin 128) :
    val_main_v18 (F := Ideal) x0 x1 x2 (ix2 b o)
      = entryInner (fun k => x0 (ix2 b k)) (fun m k => x1 (ix3 o m k)) (fun m k => x2 (ix3 o m k)) := by
  simp only [val_main_v18_apply, val_main_v17_apply, val_main_v16_apply, val_main_cst_3_apply, val_main_v15_apply,
    val_main_v14_apply, val_main_cst_2_apply, val_main_v13_apply, val_main_cst_1_apply, val_main_v12_apply,
    val_main_call1_v0_apply, val_main_call1_cst_apply, val_main_v11_apply, val_main_cst_0_apply, val_main_v10_apply,
    val_main_call0_v0_apply, val_main_call0_cst_apply, val_main_v9_apply, val_main_v8_apply, val_main_cst_apply,
    val_main_v7_apply, val_main_v6_apply, val_main_v5_apply, val_main_v4_apply, val_main_v3_apply, val_main_v2_apply,
    val_main_v1_apply, val_main_v0_apply, val_main_call2_v0_apply, val_main_call2_cst_apply,
    idx_x, idx_w, idx_q, Ideal.maximumf_def, Ideal.mulf_def, Ideal.subf_def, Ideal.ofBits_def, Ideal.ofBits_zero_f32]
  rfl

/-- The reference's result array is `G` of its arguments: entry by entry it is the entry with the factor inside, which is
    the entry with the factor pulled out. -/
theorem val_eq_G (x0 : FVec Ideal S512x512 .f32) (x1 x2 : FVec Ideal S128x8x512 .f32) :
    val_main_v18 (F := Ideal) x0 x1 x2 = G x0 x1 x2 := by
  funext i
  obtain ⟨b, o, rfl⟩ : ∃ (b : Fin 512) (o : Fin 128), i = ix2 b o := ⟨i 0, i 1, eq_ix2 i⟩
  rw [val_entry, entryInner_eq_entryOuter]
  rfl

end Cert.Dendrite.Ref

end
-- ==== Proof.LibKeepdims3.lean ====
/-
  Rank-3 arrays with a kept unit axis, read at an index given by coordinates: the layout operations and the one-axis
  reductions a body meets when it sums or maximises over an axis with the axis kept (size 1) and broadcasts the result back.
  Every lemma names the operand's index by coordinates (`ix2`, `ix3` over literal extents), so it applies by unification.
  • a cast that appends a unit axis: an [a, b] array cast to [a, b, 1] at (i, j, u) is the operand at (i, j);
  • a broadcast between rank-3 shapes at (i, j, l) is the operand at the index that is 0 on each unit axis of the operand
    and the result's coordinate elsewhere (`broadcastTo3_apply`, with the five unit patterns named after it);
  • a float sum over the last or the middle axis at the kept coordinates is the `Fin`-indexed sum over that axis, and a
    float maximum over the middle axis is the fold of max from the accumulator's value over that axis.
-/
import Idealize.ShloMosaic.Lib.Pipeline.Value
import Idealize.ShloMosaic.Lib.ValueIdx
import Idealize.ShloMosaic.PureOps.Ideal.Laws

open scoped BigOperators

namespace Cert.LibKeepdims3

open Idealize.ShloMosaic Idealize.ShloMosaic.ValueIdx

variable {α : Type}

/-! ## A cast that appends a unit axis -/

/-- An `[a, b]` array cast to `[a, b, 1]` reads, at `(i, j, u)`, the operand at `(i, j)`: the two row-major positions
    are `i·b + j` and `(i·b + j)·1 + 0`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-! ## A broadcast between rank-3 shapes -/

/-- A `[p, q, r]` array broadcast to `[a, b, c]` reads, at `(i, j, l)`, the operand at the index whose coordinate on
    each axis is `0` where the operand's extent is one and the result's coordinate elsewhere. -/
theorem broadcastTo3_apply {p q r a b c : ℕ} (x : (⟨3, ![p, q, r]⟩ : Shape).Idx → α)
    (h : (⟨3, ![p, q, r]⟩ : Shape).Broadcasts ⟨3, ![a, b, c]⟩) (i : Fin a) (j : Fin b) (l : Fin c)
    (k0 : Fin p) (k1 : Fin q) (k2 : Fin r)
    (h0 : k0.val = if p = 1 then 0 else i.val) (h1 : k1.val = if q = 1 then 0 else j.val)
    (h2 : k2.val = if r = 1 then 0 else l.val) :
    broadcastTo ⟨3, ![a, b, c]⟩ x h (ix3 i j l) = x (ix3 k0 k1 k2) :=
  broadcastTo_apply x h (ix3 i j l) (ix3 k0 k1 k2) fun ax => by
    match ax with
    | ⟨0, _⟩ => exact h0
    | ⟨1, _⟩ => exact h1
    | ⟨2, _⟩ => exact h2

/-- A coordinate below an extent is the coordinate, or `0` when the extent is one. -/
theorem val_eq_ite {n : ℕ} (i : Fin n) : i.val = if n = 1 then 0 else i.val := by
  split
  · have := i.isLt; omega
  · rfl

/-- The unit coordinate is `0`. -/
theorem zero_eq_ite (v : ℕ) : (0 : Fin 1).val = if (1 : ℕ) = 1 then 0 else v := by rw [if_pos rfl]; rfl

/-- A column `[a, b, 1]` broadcast along the last axis to `[a, b, c]` reads, at `(i, j, l)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ x h (ix3 i j l) = x (ix3 i j (0 : Fin 1)) :=
  broadcastTo3_apply x h i j l i j 0 (val_eq_ite i) (val_eq_ite j) (zero_eq_ite _)

/-- One value per leading index `[a, 1, 1]` broadcast along the middle axis to `[a, b, 1]` reads, at `(i, j, u)`, the
    operand at `(i, 0, 0)`. -/
theorem broadcastTo_a11_ab1_apply {a b : ℕ} (x : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ x h (ix3 i j u) = x (ix3 i (0 : Fin 1) (0 : Fin 1)) :=
  broadcastTo3_apply x h i j u i 0 0 (val_eq_ite i) (zero_eq_ite _) (zero_eq_ite _)

/-- One value per leading index `[a, 1, 1]` broadcast along the last axis to `[a, 1, c]` reads, at `(i, u, l)`, the
    operand at `(i, 0, 0)`. -/
theorem broadcastTo_a11_a1c_apply {a c : ℕ} (x : (⟨3, ![a, 1, 1]⟩ : Shape).Idx → α)
    (h : (⟨3, ![a, 1, 1]⟩ : Shape).Broadcasts ⟨3, ![a, 1, c]⟩) (i : Fin a) (u : Fin 1) (l : Fin c) :
    broadcastTo ⟨3, ![a, 1, c]⟩ x h (ix3 i u l) = x (ix3 i (0 : Fin 1) (0 : Fin 1)) :=
  broadcastTo3_apply x h i u l i 0 0 (val_eq_ite i) (zero_eq_ite _) (zero_eq_ite _)

/-- One row `[1, 1, c]` broadcast over the leading axis to `[a, 1, c]` reads, at `(i, u, l)`, the operand at `(0, 0, l)`. -/
theorem broadcastTo_11c_a1c_apply {a c : ℕ} (x : (⟨3, ![1, 1, c]⟩ : Shape).Idx → α)
    (h : (⟨3, ![1, 1, c]⟩ : Shape).Broadcasts ⟨3, ![a, 1, c]⟩) (i : Fin a) (u : Fin 1) (l : Fin c) :
    broadcastTo ⟨3, ![a, 1, c]⟩ x h (ix3 i u l) = x (ix3 (0 : Fin 1) (0 : Fin 1) l) :=
  broadcastTo3_apply x h i u l 0 0 l (zero_eq_ite _) (zero_eq_ite _) (val_eq_ite l)

/-- One column `[1, b, 1]` broadcast over the leading axis to `[a, b, 1]` reads, at `(i, j, u)`, the operand at `(0, j, 0)`. -/
theorem broadcastTo_1b1_ab1_apply {a b : ℕ} (x : (⟨3, ![1, b, 1]⟩ : Shape).Idx → α)
    (h : (⟨3, ![1, b, 1]⟩ : Shape).Broadcasts ⟨3, ![a, b, 1]⟩) (i : Fin a) (j : Fin b) (u : Fin 1) :
    broadcastTo ⟨3, ![a, b, 1]⟩ x h (ix3 i j u) = x (ix3 (0 : Fin 1) j (0 : Fin 1)) :=
  broadcastTo3_apply x h i j u 0 j 0 (zero_eq_ite _) (val_eq_ite j) (zero_eq_ite _)

/-! ## One-axis reductions at the kept coordinates -/

variable {φ : FTy}

/-- A float sum over the LAST axis of an `[a, b, c]` array, at `(i, j)`, is the sum over `l` of the array at `(i, j, l)`. -/
theorem sumLast3_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ l : Fin c, src (ix3 i j l) :=
  (Ideal.multiReduction_add_single src acc h hφ hacc (ix2 i j)).trans
    (Finset.sum_congr rfl fun l _ => congrArg src (funext fun ax => by
      match ax with
      | ⟨0, _⟩ => rfl
      | ⟨1, _⟩ => rfl
      | ⟨2, _⟩ => rfl))

/-- A float sum over the MIDDLE axis of an `[a, b, c]` array, at `(i, l)`, is the sum over `j` of the array at `(i, j, l)`. -/
theorem sumMid3_apply {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (l : Fin c) :
    multiReduction .add [1] ⟨2, ![a, c]⟩ src acc h hφ hacc (ix2 i l) = ∑ j : Fin b, src (ix3 i j l) :=
  (Ideal.multiReduction_add_single src acc h hφ hacc (ix2 i l)).trans
    (Finset.sum_congr rfl fun j _ => congrArg src (funext fun ax => by
      match ax with
      | ⟨0, _⟩ => rfl
      | ⟨1, _⟩ => rfl
      | ⟨2, _⟩ => rfl))

/-- A float maximum over the MIDDLE axis of an `[a, b, c]` array, at `(i, l)`, is the fold of max, from the value the
    accumulator's word denotes, over `j` of the array at `(i, j, l)`. -/
theorem maxMid3_apply {a b c : ℕ} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.maximumf.neutral φ hφ) (i : Fin a) (l : Fin c) :
    multiReduction .maximumf [1] ⟨2, ![a, c]⟩ src acc h hφ hacc (ix2 i l)
      = (Finset.univ : Finset (Fin b)).fold max (Ideal.ofBits φ acc) (fun j => src (ix3 i j l)) :=
  (Ideal.multiReduction_maximumf_single src acc h hφ hacc (ix2 i l)).trans
    (congrArg (fun f => (Finset.univ : Finset (Fin b)).fold max (Ideal.ofBits φ acc) f)
      (funext fun j => congrArg src (funext fun ax => by
        match ax with
        | ⟨0, _⟩ => rfl
        | ⟨1, _⟩ => rfl
        | ⟨2, _⟩ => rfl)))

end Cert.LibKeepdims3
-- ==== Proof.KernelBlock.lean ====
/-
  What one grid point leaves in its [8, 128] output block, entry by entry.

  The body holds a row block x (8 rows of 512 inputs) and the whole transposed slabs W', q' of shape [8, 128, 512]
  (first axis: the dendrite m). For each m it slices slab m, spreads the rows over the 128 units and the slab over the
  8 rows, forms max(x*W' - q', 0), sums over the 512 inputs and rectifies; the eight results are added up from 0, scaled by
  1/4, shifted by f32(0.05) and rectified. At (b, o) that is `Dendrite.entryOuter` of row b of x and of the columns
  (m, o, ·) of W' and q'.
-/
import proofs.«155146_j78056735638014_2_alg».proof.Proof.Gen.KernelIdeal.Value
import proofs.«155146_j78056735638014_2_alg».proof.Proof.Dendrite
import proofs.«155146_j78056735638014_2_alg».proof.Proof.LibKeepdims3
import Idealize.ShloMosaic.Lib.ValueIdx
import Idealize.ShloMosaic.Lib.Pipeline.Value
import Idealize.ShloMosaic.PureOps.Ideal.Laws

noncomputable section

open scoped BigOperators

namespace Cert.Dendrite.Block

open Cert.KernelIdeal Idealize.ShloMosaic Idealize.ShloMosaic.ValueIdx Cert.LibKeepdims3

variable {α : Type}

/-- A row block [8, 512] given a unit middle axis and spread over 128 units reads, at (b, o, l), the block at (b, l). -/
theorem row_spread (P : S8x512.Idx → α) (h1 : S8x512.ShapeCasts S8x1x512) (h2 : S8x1x512.Broadcasts S8x128x512)
    (b : Fin 8) (o : Fin 128) (l : Fin 512) :
    broadcastTo S8x128x512 (shapeCast S8x1x512 P h1) h2 (ix3 b o l) = P (ix2 b l) := by
  refine (broadcastTo3_apply (shapeCast S8x1x512 P h1) h2 b o l b 0 l (val_eq_ite b) (zero_eq_ite _) (val_eq_ite l)).trans ?_
  refine shapeCast_apply P h1 _ _ ?_
  rw [Shape.rowMajor_val_two, Shape.rowMajor_val_three]
  show b.val * 512 + l.val = (b.val * 1 + (0 : Fin 1).val) * 512 + l.val
  simp

/-- Slab `off` of a [8, 128, 512] array, cut out as [1, 128, 512], flattened to [128, 512], given back its unit axis and
    spread over 8 rows reads, at (b, o, l), the array at (off, o, l). -/
theorem slab_spread (P : S8x128x512.Idx → α) (off : ℕ) (hoff : off < 8)
    (hs : S8x128x512.Slices ![off, 0, 0] S1x128x512) (h3 : S8x128x512.ShapeCasts S8x128x512)
    (h4 : S1x128x512.ShapeCasts S128x512) (h5 : S128x512.ShapeCasts S1x128x512)
    (h6 : S1x128x512.Broadcasts S8x128x512) (b : Fin 8) (o : Fin 128) (l : Fin 512) :
    broadcastTo S8x128x512 (shapeCast S1x128x512 (shapeCast S128x512
        (extractStridedSlice S1x128x512 ![off, 0, 0] (shapeCast S8x128x512 P h3) hs) h4) h5) h6 (ix3 b o l)
      = P (ix3 ⟨off, hoff⟩ o l) := by
  rw [shapeCast_shapeCast, shapeCast_self]
  refine (broadcastTo3_apply _ h6 b o l 0 o l (zero_eq_ite _) (val_eq_ite o) (val_eq_ite l)).trans ?_
  refine extractStridedSlice_apply _ P hs _ _ fun a => ?_
  match a with
  | ⟨0, _⟩ => show off = off + (0 : Fin 1).val; simp
  | ⟨1, _⟩ => show o.val = 0 + o.val; omega
  | ⟨2, _⟩ => show l.val = 0 + l.val; omega

/-- One dendrite's input sum at (b, o): the lane sum of max(x*W' - q', 0) over the 512 inputs of slab `off`. -/
theorem slab_sum (P0 : FVec Ideal S8x512 .f32) (P1 P2 : FVec Ideal S8x128x512 .f32) (off : ℕ) (hoff : off < 8)
    (hs : S8x128x512.Slices ![off, 0, 0] S1x128x512) (h1 : S8x512.ShapeCasts S8x1x512)
    (h2 : S8x1x512.Broadcasts S8x128x512) (h3 : S8x128x512.ShapeCasts S8x128x512)
    (h4 : S1x128x512.ShapeCasts S128x512) (h5 : S128x512.ShapeCasts S1x128x512)
    (h6 : S1x128x512.Broadcasts S8x128x512) (hr : S8x128x512.Reduces [2] S8x128) (hφ : FKind.Formats .f32)
    (hacc : (0x00000000#32 : BitVec 32) = 0x00000000#32) (b : Fin 8) (o : Fin 128) :
    multiReduction .add [2] S8x128
        (maximumf (subf (mulf (broadcastTo S8x128x512 (shapeCast S8x1x512 P0 h1) h2)
            (broadcastTo S8x128x512 (shapeCast S1x128x512 (shapeCast S128x512
              (extractStridedSlice S1x128x512 ![off, 0, 0] (shapeCast S8x128x512 P1 h3) hs) h4) h5) h6))
          (broadcastTo S8x128x512 (shapeCast S1x128x512 (shapeCast S128x512
              (extractStridedSlice S1x128x512 ![off, 0, 0] (shapeCast S8x128x512 P2 h3) hs) h4) h5) h6))
          (broadcast S8x128x512 (Scalar.ofBits .f32 0x00000000#32)))
        0x00000000#32 hr hφ hacc (ix2 b o)
      = ∑ k : Fin 512, max (P0 (ix2 b k) * P1 (ix3 ⟨off, hoff⟩ o k) - P2 (ix3 ⟨off, hoff⟩ o k)) 0 := by
  refine (sumLast3_apply _ _ hr hφ hacc b o).trans (Finset.sum_congr rfl fun k _ => ?_)
  rw [maximumf_apply, subf_apply, mulf_apply, broadcast_apply, row_spread P0 h1 h2 b o k,
    slab_spread P1 off hoff hs h3 h4 h5 h6 b o k, slab_spread P2 off hoff hs h3 h4 h5 h6 b o k]
  show max _ (Ideal.ofBits .f32 0x00000000#32) = _
  rw [Ideal.ofBits_zero_f32]

/-- The point's block at (b, o): the eight rectified dendrite sums added up from 0, times 1/4, minus f32(0.05), rectified. -/
theorem block_entry (P0 : FVec Ideal S8x512 .f32) (P1 P2 : FVec Ideal S8x128x512 .f32) (b : Fin 8) (o : Fin 128) :
    Cert.KernelIdeal.Value.E3 (F := Ideal) P0 P1 P2 (ix2 b o)
      = entryOuter (fun k => P0 (ix2 b k)) (fun m k => P1 (ix3 m o k)) (fun m k => P2 (ix3 m o k)) := by
  have e0 : Cert.KernelIdeal.Value.ix3_0 (ix2 b o) = ix2 b o := funext fun a => by match a with | ⟨0, _⟩ => rfl | ⟨1, _⟩ => rfl
  have e1 : Cert.KernelIdeal.Value.ix3_1 (ix2 b o) = ix2 b o := funext fun a => by match a with | ⟨0, _⟩ => rfl | ⟨1, _⟩ => rfl
  have e2 : Cert.KernelIdeal.Value.ix3_2 (ix2 b o) = ix2 b o := funext fun a => by match a with | ⟨0, _⟩ => rfl | ⟨1, _⟩ => rfl
  have e3 : Cert.KernelIdeal.Value.ix3_3 (ix2 b o) = ix2 b o := funext fun a => by match a with | ⟨0, _⟩ => rfl | ⟨1, _⟩ => rfl
  have e4 : Cert.KernelIdeal.Value.ix3_4 (ix2 b o) = ix2 b o := funext fun a => by match a with | ⟨0, _⟩ => rfl | ⟨1, _⟩ => rfl
  have e5 : Cert.KernelIdeal.Value.ix3_5 (ix2 b o) = ix2 b o := funext fun a => by match a with | ⟨0, _⟩ => rfl | ⟨1, _⟩ => rfl
  have e6 : Cert.KernelIdeal.Value.ix3_6 (ix2 b o) = ix2 b o := funext fun a => by match a with | ⟨0, _⟩ => rfl | ⟨1, _⟩ => rfl
  have e7 : Cert.KernelIdeal.Value.ix3_7 (ix2 b o) = ix2 b o := funext fun a => by match a with | ⟨0, _⟩ => rfl | ⟨1, _⟩ => rfl
  unfold entryOuter
  rw [Fin.sum_univ_eight]
  simp only [Cert.KernelIdeal.Value.E3, e0, e1, e2, e3, e4, e5, e6, e7]
  rw [slab_sum P0 P1 P2 0 (by decide), slab_sum P0 P1 P2 1 (by decide), slab_sum P0 P1 P2 2 (by decide),
    slab_sum P0 P1 P2 3 (by decide), slab_sum P0 P1 P2 4 (by decide), slab_sum P0 P1 P2 5 (by decide),
    slab_sum P0 P1 P2 6 (by decide), slab_sum P0 P1 P2 7 (by decide)]
  simp only [Ideal.maximumf_def, Ideal.subf_def, Ideal.mulf_def, Ideal.addf_def, Ideal.ofBits_def,
    Ideal.ofBits_zero_f32, zero_add]
  rfl

end Cert.Dendrite.Block

end
-- ==== Proof.KernelWhole.lean ====
/-
  From blocks to the array. Grid point t (of 64) holds rows 8t … 8t+7 of x and the whole transposed slabs, and writes rows
  8t … 8t+7 of the result; every row lies in exactly the block of point (row / 8), so after the run the result array is
  ONE function of the arrays the region found. Those are x itself and the transposes W', q' : [8, 128, 512] of W and q
  (axes 0 and 1 exchanged), so W' at (m, o, k) is W at (o, m, k) and the result is `Dendrite.G x W q`.
-/
import proofs.«155146_j78056735638014_2_alg».proof.Proof.Gen.KernelIdeal.Value
import proofs.«155146_j78056735638014_2_alg».proof.Proof.KernelBlock
import Idealize.ShloMosaic.Lib.StableHlo.Run

noncomputable section

open scoped BigOperators

namespace Cert.Dendrite.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.Dendrite.Block

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The result as a function of x and the TRANSPOSED slabs: entry (r, o) reads row r of x and the columns (m, o, ·). -/
def GT (x : S512x512.Idx → EReal) (Wt Qt : S8x128x512.Idx → EReal) : S512x128.Idx → EReal :=
  fun i => entryOuter (fun k : Fin 512 => x (ix2 (i 0 : Fin 512) k))
    (fun (mm : Fin 8) (k : Fin 512) => Wt (ix3 mm (i 1 : Fin 128) k))
    (fun (mm : Fin 8) (k : Fin 512) => Qt (ix3 mm (i 1 : Fin 128) k))

/-- What the body leaves in the output block, from blocks given as plain arrays: the loads are whole-block loads. -/
theorem out_entry (x0 : Vec Ideal S8x512 .f32) (x1 x2 : Vec Ideal S8x128x512 .f32) (b : Fin 8) (o : Fin 128) :
    out0_3 x0 x1 x2 (ix2 b o)
      = entryOuter (fun k => x0 (ix2 b k)) (fun mm k => x1 (ix3 mm o k)) (fun mm k => x2 (ix3 mm o k)) := by
  have e0 : View.ld x0 r0_0 = x0 := View.ld_unit_zero (S := S8x512) zero2 _ x0
  have e1 : View.ld x1 r0_1 = x1 := View.ld_unit_zero (S := S8x128x512) zero3 _ x1
  have e2 : View.ld x2 r0_1 = x2 := View.ld_unit_zero (S := S8x128x512) zero3 _ x2
  unfold out0_3
  rw [e0, e1, e2]
  exact (Value.canon3_eq x0 x1 x2 (ix2 b o)).trans (block_entry x0 x1 x2 b o)

/-- The block indices over the grid: the x block and the output block of point t are block t along the rows, every other
    block index is 0 (decided over the 64 points). -/
theorem idx_facts : ∀ t : Fin cfg0.N,
    win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- WHAT POINT t WRITES BACK is block t of `GT` of the arrays as the region finds them. -/
theorem flushed_eq (c : Dev nD) (t : Fin cfg0.N) :
    (dats m 0 c).flushed 3 t
      = ((cfg0.win 3).blk t).view.read (Elt Ideal) (GT (V m c main_arg0) (V m c main_v0) (V m c main_v1)) := by
  rw [Value.flushed3]
  obtain ⟨f00, f01, f10, f11, f12, f20, f21, f22, f30, f31⟩ := idx_facts t
  funext j
  obtain ⟨p, q, rfl⟩ : ∃ (p : Fin 8) (q : Fin 128), j = ix2 p q := ⟨j 0, j 1, eq_ix2 j⟩
  refine (out_entry (iblk m c 0 t) (iblk m c 1 t) (iblk m c 2 t) p q).trans ?_
  show entryOuter (fun k : Fin 512 => V m c main_arg0 (((cfg0.win 0).blk t).view.emb (ix2 p k)))
      (fun (mm : Fin 8) (k : Fin 512) => V m c main_v0 (((cfg0.win 1).blk t).view.emb (ix3 mm q k)))
      (fun (mm : Fin 8) (k : Fin 512) => V m c main_v1 (((cfg0.win 2).blk t).view.emb (ix3 mm q k)))
    = entryOuter (fun k : Fin 512 => V m c main_arg0 (ix2 ((((cfg0.win 3).blk t).view.emb (ix2 p q)) 0 : Fin 512) k))
      (fun (mm : Fin 8) (k : Fin 512) => V m c main_v0 (ix3 mm ((((cfg0.win 3).blk t).view.emb (ix2 p q)) 1 : Fin 128) k))
      (fun (mm : Fin 8) (k : Fin 512) => V m c main_v1 (ix3 mm ((((cfg0.win 3).blk t).view.emb (ix2 p q)) 1 : Fin 128) k))
  have h0 : ∀ k : Fin 512, ((cfg0.win 0).blk t).view.emb (ix2 p k)
      = ix2 ((((cfg0.win 3).blk t).view.emb (ix2 p q)) 0 : Fin 512) k := by
    intro k; funext a; apply Fin.ext
    match a with
    | ⟨0, _⟩ => show win0_0.index t (0 : Fin 2) * 8 + 1 * p.val = win0_3.index t (0 : Fin 2) * 8 + 1 * p.val; omega
    | ⟨1, _⟩ => show win0_0.index t (1 : Fin 2) * 512 + 1 * k.val = k.val; omega
  have h1 : ∀ (mm : Fin 8) (k : Fin 512), ((cfg0.win 1).blk t).view.emb (ix3 mm q k)
      = ix3 mm ((((cfg0.win 3).blk t).view.emb (ix2 p q)) 1 : Fin 128) k := by
    intro mm k; funext a; apply Fin.ext
    match a with
    | ⟨0, _⟩ => show win0_1.index t (0 : Fin 3) * 8 + 1 * mm.val = mm.val; omega
    | ⟨1, _⟩ => show win0_1.index t (1 : Fin 3) * 128 + 1 * q.val = win0_3.index t (1 : Fin 2) * 128 + 1 * q.val; omega
    | ⟨2, _⟩ => show win0_1.index t (2 : Fin 3) * 512 + 1 * k.val = k.val; omega
  have h2 : ∀ (mm : Fin 8) (k : Fin 512), ((cfg0.win 2).blk t).view.emb (ix3 mm q k)
      = ix3 mm ((((cfg0.win 3).blk t).view.emb (ix2 p q)) 1 : Fin 128) k := by
    intro mm k; funext a; apply Fin.ext
    match a with
    | ⟨0, _⟩ => show win0_2.index t (0 : Fin 3) * 8 + 1 * mm.val = mm.val; omega
    | ⟨1, _⟩ => show win0_2.index t (1 : Fin 3) * 128 + 1 * q.val = win0_3.index t (1 : Fin 2) * 128 + 1 * q.val; omega
    | ⟨2, _⟩ => show win0_2.index t (2 : Fin 3) * 512 + 1 * k.val = k.val; omega
  simp only [h0, h1, h2]
  rfl

/-- An index of the result is in point t's block iff each coordinate is in the block's range on its axis. -/
theorem mem_blk (t : Fin cfg0.N) (i : S512x128.Idx) :
    i ∈ ((cfg0.win 3).blk t).view.set ↔ ∀ a : Fin 2, win0_3.index t a * S8x128.size a ≤ (i a).val
      ∧ (i a).val < win0_3.index t a * S8x128.size a + S8x128.size a := by
  show i ∈ ((View.whole main_v2).slice (win0_3.rect t)).set ↔ _
  rw [View.set_slice_whole, Rect.mem_set_unit]
  exact Iff.rfl

/-- Every index of the result is in the block of the point that holds its row: row r is in block r / 8. -/
theorem cover (i : S512x128.Idx) :
    ∃ t : Fin cfg0.N, (cfg0.win 3).flush t = true ∧ i ∈ ((cfg0.win 3).blk t).view.set := by
  have hi0 : (i 0).val < 512 := (i 0).isLt
  have hi1 : (i 1).val < 128 := (i 1).isLt
  have hlt : (i 0).val / 8 < cfg0.N := by show (i 0).val / 8 < 64; omega
  refine ⟨⟨(i 0).val / 8, hlt⟩, flush0_3 _, ?_⟩
  obtain ⟨-, -, -, -, -, -, -, -, f30, f31⟩ := idx_facts ⟨(i 0).val / 8, hlt⟩
  rw [mem_blk]
  intro a
  match a with
  | ⟨0, _⟩ =>
    show win0_3.index ⟨(i 0).val / 8, hlt⟩ (0 : Fin 2) * 8 ≤ (i 0).val
      ∧ (i 0).val < win0_3.index ⟨(i 0).val / 8, hlt⟩ (0 : Fin 2) * 8 + 8
    rw [f30]; show (i 0).val / 8 * 8 ≤ (i 0).val ∧ (i 0).val < (i 0).val / 8 * 8 + 8; omega
  | ⟨1, _⟩ =>
    show win0_3.index ⟨(i 0).val / 8, hlt⟩ (1 : Fin 2) * 128 ≤ (i 1).val
      ∧ (i 1).val < win0_3.index ⟨(i 0).val / 8, hlt⟩ (1 : Fin 2) * 128 + 128
    rw [f31]; omega

/-- THE RESULT ARRAY after the run is `GT` of the arrays the region found. -/
theorem final (c : Dev nD) :
    (dats m 0 c).arrAt 3 cfg0.N = GT (V m c main_arg0) (V m c main_v0) (V m c main_v1) :=
  (dats m 0 c).arrAt_eq_of_cover 3 _ (fun t _ => flushed_eq m c t) cover

/-! ## The transposed slabs -/

/-- The region finds, in its second window's array, the transpose of W made before the call. -/
theorem V_v0 (c : Dev nD) : (V m c main_v0 : S8x128x512.Idx → EReal)
    = transpose S8x128x512 [1, 0, 2] (m ((c : Thread nD τ).loc main_arg1)) transposes_S128x8x512_S8x128x512_1_0_2 := by
  dsimp only [Gen.V, Gen.hostOps0]; after_results <;> rfl

/-- … and in its third window's array the transpose of q. -/
theorem V_v1 (c : Dev nD) : (V m c main_v1 : S8x128x512.Idx → EReal)
    = transpose S8x128x512 [1, 0, 2] (m ((c : Thread nD τ).loc main_arg2)) transposes_S128x8x512_S8x128x512_1_0_2 := by
  dsimp only [Gen.V, Gen.hostOps0]; after_results <;> rfl

/-- The transpose exchanging the first two axes reads, at (m, o, k), the operand at (o, m, k). -/
theorem transposed_apply {α : Type} (W : S128x8x512.Idx → α) (h : S128x8x512.Transposes [1, 0, 2] S8x128x512)
    (mm : Fin 8) (o : Fin 128) (k : Fin 512) :
    transpose S8x128x512 [1, 0, 2] W h (ix3 mm o k) = W (ix3 o mm k) :=
  transpose_apply [1, 0, 2] W h (ix3 mm o k) (ix3 o mm k) fun b => by
    match b with
    | ⟨0, _⟩ => rfl
    | ⟨1, _⟩ => rfl
    | ⟨2, _⟩ => rfl

/-- So the result over the transposed slabs is the result over W and q themselves. -/
theorem GT_transposed (x : S512x512.Idx → EReal) (W Q : S128x8x512.Idx → EReal)
    (h : S128x8x512.Transposes [1, 0, 2] S8x128x512) :
    GT x (transpose S8x128x512 [1, 0, 2] W h) (transpose S8x128x512 [1, 0, 2] Q h) = G x W Q := by
  funext i
  exact congrArg₂ (entryOuter (fun k : Fin 512 => x (ix2 (i 0 : Fin 512) k)))
    (funext fun mm => funext fun k => transposed_apply W h mm (i 1 : Fin 128) k)
    (funext fun mm => funext fun k => transposed_apply Q h mm (i 1 : Fin 128) k)

/-- THE RESULT ARRAY after the run, as a function of the three arguments as launched. -/
theorem result (c : Dev nD) :
    (dats m 0 c).arrAt 3 cfg0.N
      = G (m ((c : Thread nD τ).loc main_arg0)) (m ((c : Thread nD τ).loc main_arg1)) (m ((c : Thread nD τ).loc main_arg2)) := by
  rw [final, V_main_arg0, V_v0, V_v1, GT_transposed]

/-- The kernel's run: it ends with the result array at `G` of the arguments, the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result m c), (h c).2⟩) (Value.run_blocks m ρ)

end Cert.Dendrite.Whole

end
-- ==== Proof.lean ====
/-
  A layer of "dendritic" units: for batch row b and unit o,
      out[b, o] = relu( K * ( sum_m relu( sum_k relu( K * (x[b,k] * W[o,m,k] - q[o,m,k]) ) ) - QS ) ),   K = 1/2, QS = f32(0.1).
  The kernel computes it tile by tile (8 rows of x per grid point, the slabs of W and q transposed to [m, o, k] beforehand)
  with the factor K pulled out of both rectifiers and both sums: relu( K*K * S - K*QS ) with S the plain double sum, the
  constants folded to 0.25 and f32(0.05) = f32(0.1)/2. On the extended reals the two are the same number for ALL inputs,
  because a positive finite factor commutes with max(., 0) and distributes over every sum and difference
  (Proof/Dendrite.lean); so the precondition is never opened.
  Proof/RefEntry.lean reads the reference's operations at an entry; Proof/KernelBlock.lean reads what one grid point leaves
  in its block; Proof/KernelWhole.lean assembles the blocks into the result array and undoes the transposes.
  No operation of the kernel was rewritten by the idealization, so that conjunct is trivial; the three frames are the
  programs' runs with the result dropped.
-/
import proofs.«155146_j78056735638014_2_alg».proof.Defs
import proofs.«155146_j78056735638014_2_alg».proof.Proof.Gen.Kernel
import proofs.«155146_j78056735638014_2_alg».proof.Proof.Gen.Kernel.Skeleton
import proofs.«155146_j78056735638014_2_alg».proof.Proof.Gen.Kernel.Launch
import proofs.«155146_j78056735638014_2_alg».proof.Proof.Gen.Kernel.Points
import proofs.«155146_j78056735638014_2_alg».proof.Proof.Gen.Kernel.Frame
import proofs.«155146_j78056735638014_2_alg».proof.Proof.Gen.KernelIdeal
import proofs.«155146_j78056735638014_2_alg».proof.Proof.Gen.KernelIdeal.Skeleton
import proofs.«155146_j78056735638014_2_alg».proof.Proof.Gen.KernelIdeal.Launch
import proofs.«155146_j78056735638014_2_alg».proof.Proof.Gen.KernelIdeal.Points
import proofs.«155146_j78056735638014_2_alg».proof.Proof.Gen.KernelIdeal.Frame
import proofs.«155146_j78056735638014_2_alg».proof.Proof.Gen.ReferenceIdeal
import proofs.«155146_j78056735638014_2_alg».proof.Proof.Gen.Pre_finite_inputs
import proofs.«155146_j78056735638014_2_alg».proof.Proof.Gen.KernelIdeal.Value
import proofs.«155146_j78056735638014_2_alg».proof.Proof.Gen.ReferenceIdeal.Run
import proofs.«155146_j78056735638014_2_alg».proof.Proof.Gen.ReferenceIdeal.Read
import proofs.«155146_j78056735638014_2_alg».proof.Proof.RefEntry
import proofs.«155146_j78056735638014_2_alg».proof.Proof.KernelWhole
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the result array at `Dendrite.G` of the three arguments: the kernel block by block, the
    reference operation by operation; the arguments agree, so the results are equal entry by entry. -/
theorem algebraic : Cert.algebraic_KernelIdeal_ReferenceIdeal := by
  intro m ρ m' ρ' _ hagree
  refine ⟨_, Cert.Dendrite.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.Dendrite.Ref.val_eq_G, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
